-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2048x64 : Shape := ⟨2, ![2048, 64]⟩
abbrev S100000x64 : Shape := ⟨2, ![100000, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : IVec S2048 32) (main_arg1 : FVec F S2048x64 .f32) (main_arg2 : FVec F S100000x64 .f32) (main_arg3 : FVec F S100000x64 .f32) : IVec S_ 1 :=
  let main_v0 : FVec F S2048x64 .f32 := Host.absf main_arg1
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  main_v13
-- ==== Kernel.lean ====
abbrev S2048 : Shape := ⟨1, ![2048]⟩
abbrev S2048x64 : Shape := ⟨2, ![2048, 64]⟩
abbrev S100000x64 : Shape := ⟨2, ![100000, 64]⟩
abbrev S_ : Shape := ⟨0, ![]⟩
abbrev S2048x1 : Shape := ⟨2, ![2048, 1]⟩
abbrev S2048x100000 : Shape := ⟨2, ![2048, 100000]⟩
abbrev S2048x2048 : Shape := ⟨2, ![2048, 2048]⟩

abbrev nBuf : Space → Nat
  | .hbm => 19
  | .vmem => 5
  | .smem => 0
  | _ => 0

abbrev bufTy : (tb : Table) → Fin (tcTables nBuf tb) → BufTy
  | .hbm, ⟨0, _⟩ => ⟨S2048, .i32⟩
  | .hbm, ⟨1, _⟩ => ⟨S2048x64, .f32⟩
  | .hbm, ⟨2, _⟩ => ⟨S100000x64, .f32⟩
  | .hbm, ⟨3, _⟩ => ⟨S100000x64, .f32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S2048x64, .f32⟩
  | .hbm, ⟨13, _⟩ => ⟨S2048x64, .f32⟩
  | .hbm, ⟨14, _⟩ => ⟨S_, .f32⟩
  | .hbm, ⟨15, _⟩ => ⟨S2048x64, .f32⟩
  | .hbm, ⟨16, _⟩ => ⟨S2048x64, .f32⟩
  | .hbm, ⟨17, _⟩ => ⟨S2048x64, .bf16⟩
  | .hbm, ⟨18, _⟩ => ⟨S2048x100000, .f32⟩
  | .local _ .vmem, ⟨0, _⟩ => ⟨S2048x64, .bf16⟩
  | .local _ .vmem, ⟨1, _⟩ => ⟨S2048x64, .f32⟩
  | .local _ .vmem, ⟨2, _⟩ => ⟨S2048x64, .f32⟩
  | .local _ .vmem, ⟨3, _⟩ => ⟨S2048x2048, .f32⟩
  | .local _ .vmem, ⟨4, _⟩ => ⟨S2048x2048, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x64 : S_.BroadcastsInDim S2048x64 (![] : Fin 0 → Fin S2048x64.rank)
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  gather_S100000x64_S2048x1_S2048x64_1_0_n_n_0_1_164_wf : GatherDims.WF S100000x64 S2048x1 S2048x64 [1] [0] [] [0] [] 1 ![1, 64]
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S2048x64.size a
  hwx0_0 : ∀ i : grid0.Coords, EltTy.bits .bf16 = 32 ∨ (Rect.block (s := S2048x64) S2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x64.size a < S100000x64.size a
  hwx0_1 : ∀ i : grid0.Coords, EltTy.bits .f32 = 32 ∨ (Rect.unit (s := S100000x64) (fun a => cc0_transform_1 i a * S2048x64.size a) (fun a => (Pipeline.Clip.of (cc0_transform_1 i a) (S2048x64.size a) (S100000x64.size a)).extent (S2048x64.size a)) fun a => Pipeline.Clip.inb (Pipeline.Clip.ok_of (hstart0_1 i a))).WholeWords (EltTy.packing .f32)
  hwxs0_1 : ∀ i : grid0.Coords, EltTy.bits .f32 = 32 ∨ (Rect.unit (s := S2048x64) (fun _ => 0) (fun a => (Pipeline.Clip.of (cc0_transform_1 i a) (S2048x64.size a) (S100000x64.size a)).extent (S2048x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x2048.size a < S2048x100000.size a
  hwx0_2 : ∀ i : grid0.Coords, EltTy.bits .f32 = 32 ∨ (Rect.unit (s := S2048x100000) (fun a => cc0_transform_2 i a * S2048x2048.size a) (fun a => (Pipeline.Clip.of (cc0_transform_2 i a) (S2048x2048.size a) (S2048x100000.size a)).extent (S2048x2048.size a)) fun a => Pipeline.Clip.inb (Pipeline.Clip.ok_of (hstart0_2 i a))).WholeWords (EltTy.packing .f32)
  hwxs0_2 : ∀ i : grid0.Coords, EltTy.bits .f32 = 32 ∨ (Rect.unit (s := S2048x2048) (fun _ => 0) (fun a => (Pipeline.Clip.of (cc0_transform_2 i a) (S2048x2048.size a) (S2048x100000.size a)).extent (S2048x2048.size a)) fun a => (Nat.zero_add _).trans_le (Pipeline.Clip.extent_le (Pipeline.Clip.ok_of (hstart0_2 i a)))).WholeWords (EltTy.packing .f32)

variable [Facts₀]

def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_v10) S2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg3) S2048x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v11) S2048x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048 : Shape := ⟨1, ![2048]⟩
abbrev S2048x64 : Shape := ⟨2, ![2048, 64]⟩
abbrev S100000x64 : Shape := ⟨2, ![100000, 64]⟩
abbrev S_ : Shape := ⟨0, ![]⟩
abbrev S2048x1 : Shape := ⟨2, ![2048, 1]⟩
abbrev S2048x100000 : Shape := ⟨2, ![2048, 100000]⟩

abbrev nBuf : Space → Nat
  | .hbm => 18
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048x64, .f32⟩
  | .hbm, ⟨2, _⟩ => ⟨S100000x64, .f32⟩
  | .hbm, ⟨3, _⟩ => ⟨S100000x64, .f32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S2048x64, .f32⟩
  | .hbm, ⟨13, _⟩ => ⟨S2048x64, .f32⟩
  | .hbm, ⟨14, _⟩ => ⟨S_, .f32⟩
  | .hbm, ⟨15, _⟩ => ⟨S2048x64, .f32⟩
  | .hbm, ⟨16, _⟩ => ⟨S2048x64, .f32⟩
  | .hbm, ⟨17, _⟩ => ⟨S2048x100000, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x64 : S_.BroadcastsInDim S2048x64 (![] : Fin 0 → Fin S2048x64.rank)
  gather_S100000x64_S2048x1_S2048x64_1_0_n_n_0_1_164_wf : GatherDims.WF S100000x64 S2048x1 S2048x64 [1] [0] [] [0] [] 1 ![1, 64]
  dot_S2048x64_S100000x64_S2048x100000_1_1_0_0_n_n_wf : DotDims.WF S2048x64 S100000x64 S2048x100000 [1] [1] [0] [0] [] []

variable [Facts₀]

def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def dot_S2048x64_S100000x64_S2048x100000_1_1_0_0_n_n : DotDims S2048x64 S100000x64 S2048x100000 where
  lhsContracting := [1]
  rhsContracting := [1]
  lhsNonContracting := [0]
  rhsNonContracting := [0]
  lhsBatch := []
  rhsBatch := []
  wf := dot_S2048x64_S100000x64_S2048x100000_1_1_0_0_n_n_wf

class Facts : Prop extends Facts₀ where

variable [Facts]
-- ==== Proof.Kernel.TileBody.lean ====
/-
  One tile of the score matrix. The kernel's function, run on three whole staging buffers — the user block
  (2048 x 64), one block of 2048 item rows (2048 x 64), and a 2048 x 2048 result tile — loads the two input
  blocks whole, forms their product contracted over the 64 embedding coordinates (into a zero accumulator), and
  stores the product over the whole result tile. So it terminates without a fault from ANY contents of the three
  buffers, leaves the two input buffers as they were, and leaves the result buffer holding the product of what
  the input buffers held. Nothing is assumed of the contents: rows of the item block past the table's end are
  multiplied like any others.
-/
import proofs.«140644_j75539884802419_2_alg».proof.Proof.Gen.Kernel.Skeleton
import proofs.«140644_j75539884802419_2_alg».proof.Proof.Gen.Kernel.Launch
import Idealize.ShloMosaic.Lib.Pipeline.FrameBody
import Idealize.ShloMosaic.Lib.Pipeline.Value
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

/-- Every access of the body starts at the buffer's origin. -/
theorem zero_offsets : (![0, 0] : Fin 2 → Nat) = fun _ => 0 := funext fun a => by fin_cases a <;> rfl

/-- The one store is through the whole tile: every index of the tile lies in its rectangle. -/
theorem store_covers (p0 : Vec F S2048x2048 .f32) (y : S2048x2048.Idx) :
    ∃ pc ∈ ([⟨Rect.unit (s := S2048x2048) ![0, 0] S2048x2048.size inb_S2048x2048_S2048x2048_0_0, p0⟩] :
      List (View.Piece (Elt F) S2048x2048 .f32)), y ∈ pc.1.set :=
  ⟨_, List.mem_singleton.mpr rfl, by
    rw [Rect.mem_set_unit]
    intro a
    have h0 : (![0, 0] : Fin 2 → Nat) a = 0 := congrFun zero_offsets a
    have hy := (y a).isLt
    omega⟩

set_option maxHeartbeats 1000000 in
/-- The body on whole staging memrefs holding `x0` (user block), `x1` (item block) and anything (result tile): it
    runs to the continuation with the input buffers unchanged and the result tile at the product `k0_pay1 x0 x1`. -/
theorem tile_triple (c : Dev nD) (E : Set ℕ) (i : grid0.Coords)
    (arg1 : Memref sig .tc .vmem S2048x64 .bf16) (harg1 : arg1.IsWhole)
    (arg2 : Memref sig .tc .vmem S2048x64 .f32) (harg2 : arg2.IsWhole)
    (arg3 : Memref sig .tc .vmem S2048x2048 .f32) (harg3 : arg3.IsWhole)
    (x0 : Vec F S2048x64 .bf16) (x1 : Vec F S2048x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the tile read back after the one whole-tile store is the stored product; each whole-block load reads the block
  rw [View.read_writes_eq_canon _ _ _ (store_covers _), View.canon_unit_zero zero_offsets]
  simp only [View.readAt_eq_ld, View.ld_unit_zero (S := S2048x64) zero_offsets]

end Cert.Kernel.Tile

end
-- ==== Proof.Kernel.TileData.lean ====
/-
  The launch's proof data for the tiled product, and the body's obligation at every grid point.

  The grid has 49 points; point `t` multiplies the user block (the same whole 2048 x 64 array at every point)
  by item rows `2048 t … 2048 t + 2047` and writes result columns `2048 t … 2048 t + 2047`. The item table has
  100000 = 48 · 2048 + 1696 rows, so at the last point only the first 1696 rows of the item block, and only the
  first 1696 columns of the result tile, lie inside their arrays: the fetch fills the rest of the item buffer with
  contents nothing names, and the write-back drops the rest of the tile. Accordingly the data name, after the
  body at point `t`: the user buffer at the user block; the item buffer at the item rows inside the table (a
  fixed filler elsewhere); the result tile at `out t` on the columns inside the result (a fixed filler
  elsewhere), where `out c t` (on core `c`) is whatever the caller shows those columns of the product to be, independently of
  what the item buffer held past the table's end (`hout`).
-/
import proofs.«140644_j75539884802419_2_alg».proof.Proof.Kernel.TileBody
import proofs.«140644_j75539884802419_2_alg».proof.Proof.Gen.Kernel.Frame

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a result tile's columns inside the result array are claimed to hold after the body, point by point. -/
abbrev TileOut (F : FTy → Type) [FloatOps F] : Type :=
  (t : Fin cfg0.N) → (win0_2.xblock (grid0.coords t)).Idx → Elt F .f32

/-- The item buffer after the body at point `t`: the item rows inside the table, a filler past its end. -/
def itemAfter (c : Dev nD) (t : Fin cfg0.N) : S2048x64.Idx → Elt F .f32 :=
  win0_1.fill (grid0.coords t) (fun _ => Scalar.ofBits .f32 0#32) (iblk m c 1 t)

/-- The result tile after the body at point `t`: `out t` on the columns inside the result, a filler past its end. -/
def tileAfter (out : TileOut F) (t : Fin cfg0.N) : S2048x2048.Idx → Elt F .f32 :=
  win0_2.fill (grid0.coords t) (fun _ => Scalar.ofBits .f32 0#32) (out t)

/-- The proof data on core `c`: the arrays as the region finds them; the three buffers after the body as above;
    the class invariant (nothing of the kernel's own is carried between points); nothing owed; full shares. -/
def dats (out : Dev nD → TileOut F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => itemAfter m c t
    | ⟨2, _⟩ => tileAfter (out c) t
  Φ _ := Pipeline.ΦA spec0 c
  q _ := fullShare
  owed _ := 0

theorem A_eq (out : Dev nD → TileOut F) (c : Dev nD) (w : Fin cfg0.W) : (dats m out 0 c).A w = V m c (Pipeline.arrRef spec0 w) := by
  dsimp only [dats]

theorem after_user (out : Dev nD → TileOut F) (c : Dev nD) (t : Fin cfg0.N) : (dats m out 0 c).after 0 t = iblk m c 0 t := by dsimp only [dats]
theorem after_item (out : Dev nD → TileOut F) (c : Dev nD) (t : Fin cfg0.N) : (dats m out 0 c).after 1 t = itemAfter m c t := by dsimp only [dats]
theorem after_tile (out : Dev nD → TileOut F) (c : Dev nD) (t : Fin cfg0.N) : (dats m out 0 c).after 2 t = tileAfter (out c) t := by dsimp only [dats]

/-- The user buffer holds the user block at every point (fetched once, never moved). -/
theorem before_user (out : Dev nD → TileOut F) (c : Dev nD) (t : Fin cfg0.N) (d) : (dats m out 0 c).before 0 t d = iblk m c 0 t :=
  before0_0_of m (dats m out 0 c) (A_eq m out c 0) (after_user m out c) t d

/-- The item buffer is fetched at every point: it holds the item rows inside the table, and `d` past its end. -/
theorem before_item (out : Dev nD → TileOut F) (c : Dev nD) (t : Fin cfg0.N) (d) :
    (dats m out 0 c).before 1 t d = win0_1.fill (grid0.coords t) d (iblk m c 1 t) := by
  rw [Dat.before_fetched _ 1 t (fetch0_1 t) d]
  unfold Dat.fetched Dat.blockOf iblk
  rw [A_eq]

/-- The result tile was written back at the previous point (or this is the first): it holds anything. -/
theorem before_tile (out : Dev nD → TileOut F) (c : Dev nD) (t : Fin cfg0.N) (d) : (dats m out 0 c).before 2 t d = d := by
  refine Dat.before_out_reset _ 2 rfl t ?_ d
  by_cases h0 : t.val = 0
  · exact .inl h0
  · exact .inr ⟨h0, flush0_2 _⟩

end Cert.Kernel.Tile

end
-- ==== Proof.Kernel.TileFrame.lean ====
/-
  The frame of the program read at machine words. Its body is the same function on the same three buffers, so it
  runs from any contents without a fault and leaves the two input buffers unchanged; what it leaves in the result
  tile is a function of machine arithmetic that nothing here needs to name. So at every grid point the result tile is
  taken and handed back at unnamed contents, the user buffer is handed back at the user block, and the item buffer at
  the item rows inside the table. Every weakly fair execution of the program then terminates without a fault, and
  the four argument arrays end as they began: three of them the launch never stages, and the item table is an input
  window, which no write-back touches.
-/
import proofs.«140644_j75539884802419_2_alg».proof.Proof.Kernel.TileData

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose contents after the body are left unnamed: the result tile. -/
abbrev unnamedTile : Fin cfg0.W → Bool := fun w => match w with
  | ⟨0, _⟩ => false
  | ⟨1, _⟩ => false
  | ⟨2, _⟩ => true

theorem body_obligation (out : Dev nD → TileOut F) (c : Dev nD) :
    BodyObligationLoose (dats m out 0 c) (defs₀ (F := F)) Variants.none () Set.univ unnamedTile := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl]
  change _ ⊢ wp frame (wpE (defs₀ (F := F)) Variants.none c none) Set.univ (bodyAt0 t) _
  unfold bodyAt0
  iintro ⟨HΦ, Ho, ⟨%d0, H0⟩, ⟨%d1, H1⟩, ⟨%X2, H2⟩⟩
  rw [before_user m out c t d0, before_item m out c t d1]
  iapply (tile_triple (F := F) c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  rw [after_user m out c t, after_item m out c t]
  isplitl [H0]; · iexact H0
  isplitl [H1]
  · -- the item buffer, described on the rows inside the table: those rows, and the same `d1` elsewhere
    iexists d1
    rw [show (win0 1).cut (grid0.coords t) (itemAfter m c t) = iblk m c 1 t from win0_1.cut_fill _ _ _]
    iexact H1
  · iexists _; iexact H2

/-- The data's claim about the result tile is never used: any will do. -/
def anyOut : Dev nD → TileOut F := fun _ _ _ => Scalar.ofBits .f32 0#32

set_option backward.isDefEq.respectTransparency.types false in
/-- The launch, with the result tile unnamed: every weakly fair execution terminates without a fault; each input
    array of the launch ends at its entry contents, nothing is said of the result array, and every other buffer ends
    as the region found it. -/
theorem run_tiles : θ_run defs (onTc (τ := τ) (main (F := F))) (s₀ m ρ)
    (Pipeline.RDat.FramePost (cfgs 0) (fun c => (dats m anyOut 0 c).toRForget unnamedTile) (V m)) :=
  Pipeline.RDat.θ_run_frame cfgs (0 : Fin 1) launch0 defs₀ Variants.none (fun c => (dats m anyOut 0 c).toRForget unnamedTile) m ρ main
    (hbody := fun c => (body_obligation m anyOut c).toRForget)
    (hshare := fun c => ((dats m anyOut 0 c).toRForget unnamedTile).share_full fun _ => rfl)
    (howed := fun _ _ => rfl) (V := V m) (hmain := hmain m Variants.none) (hA := A_eq m anyOut) (hΦ := fun _ _ => rfl)

/-- The frame: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      by
        have h1 := (h c).1 1
        rw [Pipeline.RDat.ArrAt_in _ 1 rfl] at h1
        exact h1.trans ((A_eq m anyOut c 1).trans (V_main_arg3 m c))⟩) (run_tiles m ρ)

end Cert.Kernel.Tile

end
-- ==== Proof.KernelIdeal.TileBody.lean ====
/-
  One tile of the score matrix. The kernel's function, run on three whole staging buffers — the user block
  (2048 x 64), one block of 2048 item rows (2048 x 64), and a 2048 x 2048 result tile — loads the two input
  blocks whole, forms their product contracted over the 64 embedding coordinates (into a zero accumulator), and
  stores the product over the whole result tile. So it terminates without a fault from ANY contents of the three
  buffers, leaves the two input buffers as they were, and leaves the result buffer holding the product of what
  the input buffers held. Nothing is assumed of the contents: rows of the item block past the table's end are
  multiplied like any others.
-/
import proofs.«140644_j75539884802419_2_alg».proof.Proof.Gen.KernelIdeal.Skeleton
import proofs.«140644_j75539884802419_2_alg».proof.Proof.Gen.KernelIdeal.Launch
import Idealize.ShloMosaic.Lib.Pipeline.FrameBody
import Idealize.ShloMosaic.Lib.Pipeline.Value
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

/-- Every access of the body starts at the buffer's origin. -/
theorem zero_offsets : (![0, 0] : Fin 2 → Nat) = fun _ => 0 := funext fun a => by fin_cases a <;> rfl

/-- The one store is through the whole tile: every index of the tile lies in its rectangle. -/
theorem store_covers (p0 : Vec F S2048x2048 .f32) (y : S2048x2048.Idx) :
    ∃ pc ∈ ([⟨Rect.unit (s := S2048x2048) ![0, 0] S2048x2048.size inb_S2048x2048_S2048x2048_0_0, p0⟩] :
      List (View.Piece (Elt F) S2048x2048 .f32)), y ∈ pc.1.set :=
  ⟨_, List.mem_singleton.mpr rfl, by
    rw [Rect.mem_set_unit]
    intro a
    have h0 : (![0, 0] : Fin 2 → Nat) a = 0 := congrFun zero_offsets a
    have hy := (y a).isLt
    omega⟩

set_option maxHeartbeats 1000000 in
/-- The body on whole staging memrefs holding `x0` (user block), `x1` (item block) and anything (result tile): it
    runs to the continuation with the input buffers unchanged and the result tile at the product `k0_pay1 x0 x1`. -/
theorem tile_triple (c : Dev nD) (E : Set ℕ) (i : grid0.Coords)
    (arg1 : Memref sig .tc .vmem S2048x64 .bf16) (harg1 : arg1.IsWhole)
    (arg2 : Memref sig .tc .vmem S2048x64 .f32) (harg2 : arg2.IsWhole)
    (arg3 : Memref sig .tc .vmem S2048x2048 .f32) (harg3 : arg3.IsWhole)
    (x0 : Vec F S2048x64 .bf16) (x1 : Vec F S2048x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the tile read back after the one whole-tile store is the stored product; each whole-block load reads the block
  rw [View.read_writes_eq_canon _ _ _ (store_covers _), View.canon_unit_zero zero_offsets]
  simp only [View.readAt_eq_ld, View.ld_unit_zero (S := S2048x64) zero_offsets]

end Cert.KernelIdeal.Tile

end
-- ==== Proof.KernelIdeal.TileData.lean ====
/-
  The launch's proof data for the tiled product, and the body's obligation at every grid point.

  The grid has 49 points; point `t` multiplies the user block (the same whole 2048 x 64 array at every point)
  by item rows `2048 t … 2048 t + 2047` and writes result columns `2048 t … 2048 t + 2047`. The item table has
  100000 = 48 · 2048 + 1696 rows, so at the last point only the first 1696 rows of the item block, and only the
  first 1696 columns of the result tile, lie inside their arrays: the fetch fills the rest of the item buffer with
  contents nothing names, and the write-back drops the rest of the tile. Accordingly the data name, after the
  body at point `t`: the user buffer at the user block; the item buffer at the item rows inside the table (a
  fixed filler elsewhere); the result tile at `out t` on the columns inside the result (a fixed filler
  elsewhere), where `out c t` (on core `c`) is whatever the caller shows those columns of the product to be, independently of
  what the item buffer held past the table's end (`hout`).
-/
import proofs.«140644_j75539884802419_2_alg».proof.Proof.KernelIdeal.TileBody
import proofs.«140644_j75539884802419_2_alg».proof.Proof.Gen.KernelIdeal.Frame

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a result tile's columns inside the result array are claimed to hold after the body, point by point. -/
abbrev TileOut (F : FTy → Type) [FloatOps F] : Type :=
  (t : Fin cfg0.N) → (win0_2.xblock (grid0.coords t)).Idx → Elt F .f32

/-- The item buffer after the body at point `t`: the item rows inside the table, a filler past its end. -/
def itemAfter (c : Dev nD) (t : Fin cfg0.N) : S2048x64.Idx → Elt F .f32 :=
  win0_1.fill (grid0.coords t) (fun _ => Scalar.ofBits .f32 0#32) (iblk m c 1 t)

/-- The result tile after the body at point `t`: `out t` on the columns inside the result, a filler past its end. -/
def tileAfter (out : TileOut F) (t : Fin cfg0.N) : S2048x2048.Idx → Elt F .f32 :=
  win0_2.fill (grid0.coords t) (fun _ => Scalar.ofBits .f32 0#32) (out t)

/-- The proof data on core `c`: the arrays as the region finds them; the three buffers after the body as above;
    the class invariant (nothing of the kernel's own is carried between points); nothing owed; full shares. -/
def dats (out : Dev nD → TileOut F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => itemAfter m c t
    | ⟨2, _⟩ => tileAfter (out c) t
  Φ _ := Pipeline.ΦA spec0 c
  q _ := fullShare
  owed _ := 0

theorem A_eq (out : Dev nD → TileOut F) (c : Dev nD) (w : Fin cfg0.W) : (dats m out 0 c).A w = V m c (Pipeline.arrRef spec0 w) := by
  dsimp only [dats]

theorem after_user (out : Dev nD → TileOut F) (c : Dev nD) (t : Fin cfg0.N) : (dats m out 0 c).after 0 t = iblk m c 0 t := by dsimp only [dats]
theorem after_item (out : Dev nD → TileOut F) (c : Dev nD) (t : Fin cfg0.N) : (dats m out 0 c).after 1 t = itemAfter m c t := by dsimp only [dats]
theorem after_tile (out : Dev nD → TileOut F) (c : Dev nD) (t : Fin cfg0.N) : (dats m out 0 c).after 2 t = tileAfter (out c) t := by dsimp only [dats]

/-- The user buffer holds the user block at every point (fetched once, never moved). -/
theorem before_user (out : Dev nD → TileOut F) (c : Dev nD) (t : Fin cfg0.N) (d) : (dats m out 0 c).before 0 t d = iblk m c 0 t :=
  before0_0_of m (dats m out 0 c) (A_eq m out c 0) (after_user m out c) t d

/-- The item buffer is fetched at every point: it holds the item rows inside the table, and `d` past its end. -/
theorem before_item (out : Dev nD → TileOut F) (c : Dev nD) (t : Fin cfg0.N) (d) :
    (dats m out 0 c).before 1 t d = win0_1.fill (grid0.coords t) d (iblk m c 1 t) := by
  rw [Dat.before_fetched _ 1 t (fetch0_1 t) d]
  unfold Dat.fetched Dat.blockOf iblk
  rw [A_eq]

/-- The result tile was written back at the previous point (or this is the first): it holds anything. -/
theorem before_tile (out : Dev nD → TileOut F) (c : Dev nD) (t : Fin cfg0.N) (d) : (dats m out 0 c).before 2 t d = d := by
  refine Dat.before_out_reset _ 2 rfl t ?_ d
  by_cases h0 : t.val = 0
  · exact .inl h0
  · exact .inr ⟨h0, flush0_2 _⟩

end Cert.KernelIdeal.Tile

end
-- ==== Proof.KernelIdeal.TileObligation.lean ====
/-
  The body's obligation at every grid point, and with it the launch: every weakly fair execution of the program
  terminates without a fault, and afterwards the result array holds what the write-backs of the 49 tiles put
  there, the other arrays what they held when the region was entered.

  At point `t` the body finds the user buffer at the user block, the item buffer at the item rows inside the table
  (anything past its end), and the result tile at anything. It leaves the first two as they were and the tile at
  the product of the two buffers. The item buffer is handed back described on the rows inside the table only, and
  the tile on the columns inside the result only: there the product is `out t` whatever the item buffer held past
  the table's end (`hout`).
-/
import proofs.«140644_j75539884802419_2_alg».proof.Proof.KernelIdeal.TileData

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the caller owes of `out`: the product's columns inside the result do not depend on the item buffer's
    contents past the table's end. -/
def TileOutOk (out : TileOut F) (c : Dev nD) : Prop :=
  ∀ (t : Fin cfg0.N) (d : S2048x64.Idx → Elt F .f32),
    win0_2.cut (grid0.coords t) (k0_pay1 (iblk m c 0 t) (win0_1.fill (grid0.coords t) d (iblk m c 1 t))) = out t

theorem body_obligation (out : Dev nD → TileOut F) (c : Dev nD) (hout : TileOutOk m (out c) c) :
    BodyObligationLoose (dats m out 0 c) (defs₀ (F := F)) Variants.none () Set.univ := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩⟩
  rw [before_user m out c t d0, before_item m out c t d1, before_tile m out c t d2]
  iapply (tile_triple (F := F) c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  rw [after_user m out c t, after_item m out c t, after_tile m out c t]
  isplitl [H0]; · iexact H0
  isplitl [H1]
  · -- the item buffer, described on the rows inside the table: those rows, and the same `d1` elsewhere
    iexists d1
    rw [show (win0 1).cut (grid0.coords t) (itemAfter m c t) = iblk m c 1 t from win0_1.cut_fill _ _ _]
    iexact H1
  · -- the tile, described on the columns inside the result: there the product is `out t`; elsewhere, itself
    iexists k0_pay1 (iblk m c 0 t) (win0_1.fill (grid0.coords t) d1 (iblk m c 1 t))
    rw [show (win0 2).cut (grid0.coords t) (tileAfter (out c) t) = out c t from win0_2.cut_fill _ _ _, ← hout t d1]
    rw [show (win0 2).fill (grid0.coords t) (k0_pay1 (iblk m c 0 t) (win0_1.fill (grid0.coords t) d1 (iblk m c 1 t)))
        (win0_2.cut (grid0.coords t) (k0_pay1 (iblk m c 0 t) (win0_1.fill (grid0.coords t) d1 (iblk m c 1 t))))
      = k0_pay1 (iblk m c 0 t) (win0_1.fill (grid0.coords t) d1 (iblk m c 1 t)) from win0_2.fill_cut _ _]
    iexact H2

set_option backward.isDefEq.respectTransparency.types false in
/-- The launch: from any memory with zero counters, every weakly fair execution of the program terminates without a
    fault; afterwards each array of the launch holds what the proof data compute (the two input arrays what they held,
    the result array its entry contents overwritten tile by tile), and every other buffer what the region found. -/
theorem run_tiles (out : Dev nD → TileOut F) (hout : ∀ c, TileOutOk m (out c) c) :
    θ_run defs (onTc (τ := τ) (main (F := F))) (s₀ m ρ) (Pipeline.FramePost cfgs (dats m out) 0 (V m)) :=
  Pipeline.θ_run_frame cfgs (dats m out) (0 : Fin 1) launch0 defs₀ Variants.none m ρ main
    (hbody := fun c => body_obligation m out c (hout c)) (hshare := fun c => (dats m out 0 c).share_full fun _ => rfl)
    (howed := fun _ _ => rfl) (V := V m) (hmain := hmain m Variants.none) (hA := A_eq m out) (hΦ := fun _ _ => rfl)

end Cert.KernelIdeal.Tile

end
-- ==== Proof.KernelIdeal.TileProduct.lean ====
/-
  One tile at the extended reals. With floats read as extended reals a change of float format is the identity, and
  a product accumulated into a zero tile is the plain sum of products. So the tile's entry in row `p` and column `q`
  is the sum, over the 64 embedding coordinates `k`, of the user block's entry `(p, k)` times the item block's
  entry `(q, k)`: row `q` of the item block alone decides column `q` of the tile.
-/
import proofs.«140644_j75539884802419_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen

local notation "tileDot" => dot_S2048x64_S2048x64_S2048x2048_1_1_0_0_n_n

/-- The user operand's index at a tile entry: its row is the entry's row, -/
theorem lhs_row (i : S2048x2048.Idx) (κ : DotDims.contr tileDot |>.Idx) : (DotDims.lhsIdx tileDot i κ 0).val = (i 0).val := by
  unfold DotDims.lhsIdx
  rw [dif_neg (show ¬(0 : Fin S2048x64.rank) ∈ DotDims.lhsBatch tileDot by decide),
    dif_pos (show (0 : Fin S2048x64.rank) ∈ DotDims.lhsNonContracting tileDot by decide)]
  rfl
/-- its column the contraction coordinate. -/
theorem lhs_col (i : S2048x2048.Idx) (κ : DotDims.contr tileDot |>.Idx) : (DotDims.lhsIdx tileDot i κ 1).val = (κ ⟨0, by decide⟩).val :=
  DotDims.lhsIdx_val_of_single tileDot rfl i κ
/-- The item operand's index at a tile entry: its row is the entry's COLUMN, -/
theorem rhs_row (i : S2048x2048.Idx) (κ : DotDims.contr tileDot |>.Idx) : (DotDims.rhsIdx tileDot i κ 0).val = (i 1).val := by
  unfold DotDims.rhsIdx
  rw [dif_neg (show ¬(0 : Fin S2048x64.rank) ∈ DotDims.rhsBatch tileDot by decide),
    dif_pos (show (0 : Fin S2048x64.rank) ∈ DotDims.rhsNonContracting tileDot by decide)]
  rfl
/-- its column the contraction coordinate. -/
theorem rhs_col (i : S2048x2048.Idx) (κ : DotDims.contr tileDot |>.Idx) : (DotDims.rhsIdx tileDot i κ 1).val = (κ ⟨0, by decide⟩).val :=
  DotDims.rhsIdx_val_of_single tileDot rfl i κ

/-- The tile's entry `(p, q)`: the sum over `k` of user `(p, k)` times item `(q, k)`. -/
theorem product_apply (x0 : Vec Ideal S2048x64 .bf16) (x1 : Vec Ideal S2048x64 .f32) (p q : Fin 2048) :
    k0_pay1 (F := Ideal) x0 x1 (ix2 p q) = ∑ k : Fin 64, x0 (ix2 p k) * x1 (ix2 q k) := by
  unfold k0_pay1
  simp only [matmul]
  rw [Ideal.matmul_constant_zero_apply, ← Equiv.sum_comp (contrEquiv1 tileDot 64 rfl rfl).symm]
  refine Finset.sum_congr rfl fun k _ => ?_
  have hk := contrEquiv1_symm_val tileDot 64 rfl rfl k
  have el : DotDims.lhsIdx tileDot (ix2 p q) ((contrEquiv1 tileDot 64 rfl rfl).symm k) = ix2 p k := funext fun a => Fin.ext (by
    match a with
    | ⟨0, _⟩ => exact lhs_row _ _
    | ⟨1, _⟩ => exact (lhs_col _ _).trans hk)
  have er : DotDims.rhsIdx tileDot (ix2 p q) ((contrEquiv1 tileDot 64 rfl rfl).symm k) = ix2 q k := funext fun a => Fin.ext (by
    match a with
    | ⟨0, _⟩ => exact rhs_row _ _
    | ⟨1, _⟩ => exact (rhs_col _ _).trans hk)
  rw [el, er, shapeCast_self]
  rfl

end Cert.KernelIdeal.Tile

end
-- ==== Proof.KernelIdeal.Scores.lean ====
/-
  The score matrix. With `u` the 2048 x 64 user array the region is entered with and `it` the 100000 x 64 item
  table, the score of user `b` against item `n` is the sum over the 64 embedding coordinates `k` of
  `u (b, k) · it (n, k)`, on the extended reals.

  Tile `t` of the launch multiplies the whole user array by item rows `2048 t + q`, so inside the result its
  column `q` is column `2048 t + q` of the score matrix — for the item rows inside the table, which are exactly the
  columns inside the result: whatever the item buffer holds past the table's end reaches only columns the
  write-back drops. The 49 tiles' columns inside the result, `2048 t … min (2048 t + 2047, 99999)`, cover all
  100000 columns, so after the run the result array IS the score matrix.
-/
import proofs.«140644_j75539884802419_2_alg».proof.Proof.KernelIdeal.TileObligation
import proofs.«140644_j75539884802419_2_alg».proof.Proof.KernelIdeal.TileProduct

set_option maxRecDepth 16384

noncomputable section

namespace Cert.KernelIdeal.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Tile Idealize.ShloMosaic.ValueIdx

variable (m : (ℓ : Loc nD τ sig) → Buf (Elt Ideal) ℓ) (ρ : Dev nD → PrngReg)

/-- The score of user `i 0` against item `i 1`. -/
def scores (u : S2048x64.Idx → EReal) (it : S100000x64.Idx → EReal) : S2048x100000.Idx → EReal :=
  fun i => ∑ k : Fin 64, u (ix2 (⟨(i 0).val, (i 0).isLt⟩ : Fin 2048) k) * it (ix2 (⟨(i 1).val, (i 1).isLt⟩ : Fin 100000) k)

/-- The user array and the item table as the region finds them on core `c`. -/
abbrev users (c : Dev nD) : S2048x64.Idx → EReal := V m c main_v10
abbrev items (c : Dev nD) : S100000x64.Idx → EReal := V m c main_arg3

/-- The score matrix of what the region finds. -/
def scoreArr (c : Dev nD) : S2048x100000.Idx → EReal := scores (users m c) (items m c)

/-- The block indices, decided over the grid: the user window stays at block (0, 0); the item window is at block row
    `t`; the result window at block column `t`. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- How much of each block lies inside its array, decided over the grid: of the item block's 2048 rows, and of the
    result tile's 2048 columns, those below 100000 (all of them but at the last point); the other axes whole. -/
theorem block_extent : ∀ t : Fin cfg0.N,
    win0_1.xsize (grid0.coords t) (0 : Fin 2) = min 2048 (100000 - t.val * 2048)
    ∧ win0_1.xsize (grid0.coords t) (1 : Fin 2) = 64
    ∧ win0_2.xsize (grid0.coords t) (0 : Fin 2) = 2048
    ∧ win0_2.xsize (grid0.coords t) (1 : Fin 2) = min 2048 (100000 - t.val * 2048) :=
  (by decide +kernel : ∀ t : Fin grid0.N, _)

/-- The user block at any point is the user array. -/
theorem user_block_at (c : Dev nD) (t : Fin cfg0.N) (p : Fin 2048) (k : Fin 64) :
    iblk m c 0 t (ix2 p k) = users m c (ix2 p k) := by
  obtain ⟨i00, i01, -⟩ := block_index t
  show V m c main_v10 (((cfg0.win 0).blk t).view.emb (ix2 p k)) = V m c main_v10 (ix2 p k)
  refine congrArg (V m c main_v10) (funext fun a => Fin.ext ?_)
  match a with
  | ⟨0, _⟩ => show win0_0.index t (0 : Fin 2) * 2048 + 1 * p.val = p.val; omega
  | ⟨1, _⟩ => show win0_0.index t (1 : Fin 2) * 64 + 1 * k.val = k.val; omega

/-- The item block at point `t`, at a row inside the table, is the table's row `2048 t + q`. -/
theorem item_block_at (c : Dev nD) (t : Fin cfg0.N) (y : (win0_1.xblock (grid0.coords t)).Idx) (n : Fin 100000) (k : Fin 64)
    (hn : n.val = t.val * 2048 + (y 0).val) (hk : k.val = (y 1).val) :
    iblk m c 1 t y = items m c (ix2 n k) := by
  obtain ⟨-, -, i10, i11, -⟩ := block_index t
  show V m c main_arg3 (((cfg0.win 1).blk t).view.emb y) = V m c main_arg3 (ix2 n k)
  refine congrArg (V m c main_arg3) (funext fun a => Fin.ext ?_)
  match a with
  | ⟨0, _⟩ => show win0_1.index t (0 : Fin 2) * 2048 + 1 * (y 0).val = n.val; omega
  | ⟨1, _⟩ => show win0_1.index t (1 : Fin 2) * 64 + 1 * (y 1).val = k.val; omega

/-- What the result tile's columns inside the result are claimed to hold at point `t`: the score matrix's block. -/
def tileOut (c : Dev nD) : TileOut Ideal := fun t => (win0_2.blk t).view.read (Elt Ideal) (scoreArr m c)

/-- A tile's columns inside the result ARE the score matrix's block, whatever the item buffer held past the table's
    end: column `q` of the tile reads row `q` of the item buffer only, and `q` is inside the result exactly when item
    row `2048 t + q` is inside the table, where the fetch put the table's row. -/
theorem tile_is_scores (c : Dev nD) : TileOutOk m (tileOut m c) c := by
  intro t d
  obtain ⟨-, -, -, -, i20, i21⟩ := block_index t
  obtain ⟨x10, x11, x20, x21⟩ := block_extent t
  funext j
  have hj0 : (j 0).val < win0_2.xsize (grid0.coords t) (0 : Fin 2) := (j 0).isLt
  have hj1 : (j 1).val < win0_2.xsize (grid0.coords t) (1 : Fin 2) := (j 1).isLt
  rw [x20] at hj0; rw [x21] at hj1
  -- the entry's coordinates in the tile, and its column in the result, as literal indices
  let p : Fin 2048 := ⟨(j 0).val, hj0⟩
  let q : Fin 2048 := ⟨(j 1).val, by omega⟩
  let n : Fin 100000 := ⟨t.val * 2048 + (j 1).val, by omega⟩
  have e : win0_2.xinj (grid0.coords t) j = ix2 p q :=
    funext fun a => Fin.ext (by match a with | ⟨0, _⟩ => rfl | ⟨1, _⟩ => rfl)
  have ei : (win0_2.blk t).view.emb j = ix2 p n := funext fun a => Fin.ext (by
    match a with
    | ⟨0, _⟩ => show win0_2.index t (0 : Fin 2) * 2048 + 1 * (j 0).val = (j 0).val; omega
    | ⟨1, _⟩ => show win0_2.index t (1 : Fin 2) * 2048 + 1 * (j 1).val = t.val * 2048 + (j 1).val; omega)
  show k0_pay1 (F := Ideal) (iblk m c 0 t) (win0_1.fill (grid0.coords t) d (iblk m c 1 t)) (win0_2.xinj (grid0.coords t) j)
    = scoreArr m c ((win0_2.blk t).view.emb j)
  rw [e, ei]
  refine (product_apply (iblk m c 0 t) (win0_1.fill (grid0.coords t) d (iblk m c 1 t)) p q).trans ?_
  show _ = ∑ k : Fin 64, users m c (ix2 p k) * items m c (ix2 n k)
  refine Finset.sum_congr rfl fun k _ => ?_
  -- row `q` of the item buffer is inside the table: the fetch put the table's row `2048 t + q` there
  have hmoved : win0_1.moved (grid0.coords t) (ix2 q k) = true := (win0_1.moved_iff _ _).mpr fun a => by
    match a with
    | ⟨0, _⟩ => show q.val < win0_1.xsize (grid0.coords t) (0 : Fin 2); rw [x10]; exact hj1
    | ⟨1, _⟩ => show k.val < win0_1.xsize (grid0.coords t) (1 : Fin 2); rw [x11]; exact k.isLt
  rw [user_block_at m c t p k]
  refine congrArg (users m c (ix2 p k) * ·) ?_
  unfold Window.fill
  rw [dif_pos hmoved]
  exact item_block_at m c t _ n k rfl rfl

/-- An index of the result is in point `t`'s block iff each coordinate is in the block's range inside the result. -/
theorem mem_tile (t : Fin cfg0.N) (i : S2048x100000.Idx) :
    i ∈ ((cfg0.win 2).blk t).view.set ↔ ∀ a : Fin 2, win0_2.index t a * S2048x2048.size a ≤ (i a).val
      ∧ (i a).val < win0_2.index t a * S2048x2048.size a + win0_2.xsize (grid0.coords t) a := by
  show i ∈ ((View.whole main_v11).slice (win0_2.rect t)).set ↔ _
  rw [View.set_slice_whole, Rect.mem_set_unit]
  exact Iff.rfl

/-- Every column `n` of the result is written back by the point `n / 2048`. -/
theorem tiles_cover (i : S2048x100000.Idx) :
    ∃ t : Fin cfg0.N, (cfg0.win 2).flush t = true ∧ i ∈ ((cfg0.win 2).blk t).view.set := by
  have hi0 : (i 0).val < 2048 := (i 0).isLt
  have hi1 : (i 1).val < 100000 := (i 1).isLt
  have hN : (i 1).val / 2048 < cfg0.N := by show _ < grid0.N; rw [N_0]; omega
  obtain ⟨t, ht⟩ : ∃ t : Fin cfg0.N, t.val = (i 1).val / 2048 := ⟨⟨_, hN⟩, rfl⟩
  obtain ⟨-, -, -, -, i20, i21⟩ := block_index t
  obtain ⟨-, -, x20, x21⟩ := block_extent t
  refine ⟨t, flush0_2 t, (mem_tile t i).mpr fun a => ?_⟩
  match a with
  | ⟨0, _⟩ =>
    show win0_2.index t (0 : Fin 2) * 2048 ≤ (i 0).val
      ∧ (i 0).val < win0_2.index t (0 : Fin 2) * 2048 + win0_2.xsize (grid0.coords t) (0 : Fin 2)
    rw [x20]; omega
  | ⟨1, _⟩ =>
    show win0_2.index t (1 : Fin 2) * 2048 ≤ (i 1).val
      ∧ (i 1).val < win0_2.index t (1 : Fin 2) * 2048 + win0_2.xsize (grid0.coords t) (1 : Fin 2)
    rw [x21]; omega

/-- After the run the result array is the score matrix. -/
theorem result_is_scores (c : Dev nD) : (dats m (tileOut m) 0 c).arrAt 2 cfg0.N = scoreArr m c :=
  (dats m (tileOut m) 0 c).arrAt_eq_of_cover 2 (scoreArr m c)
    (fun t _ => by
      show (cfg0.win 2).cut (grid0.coords t) ((dats m (tileOut m) 0 c).after 2 t) = _
      rw [after_tile]
      exact win0_2.cut_fill _ _ _)
    tiles_cover

/-- The run of the idealized kernel, read: every weakly fair execution terminates without a fault, the result array
    ends at the score matrix of what the region found, the averaged user embeddings (which the launch never stages) as
    the region found them, and the four argument arrays as they began. -/
theorem run : θ_run defs (onTc (τ := τ) (main (F := Ideal))) ⟨m, fun _ => 0, ρ⟩ fun r => ∀ c : Dev nD,
      r.2.mem ((c.tc : Thread nD τ).loc main_v11) = scoreArr m c
      ∧ r.2.mem ((c.tc : Thread nD τ).loc main_v9) = V m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1 2).trans (result_is_scores m c),
      (h c).2 main_v9 (Pipeline.mem_restRefs_of main_v9 (by decide) (by decide)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m (tileOut m) 0 c).arrAt_in 1 rfl _).trans ((A_eq m (tileOut m) c 1).trans (V_main_arg3 m c)))⟩)
    (run_tiles m ρ (tileOut m) (tile_is_scores m))

end Cert.KernelIdeal.Scores

end
-- ==== Proof.Bridge.lean ====
/-
  The two idealized programs compute one function of the argument arrays.

  Both begin with the same host operations: wrap a negative user id by adding 100000, gather that row of the user
  table, add the user state, halve. The kernel program then narrows the averaged embeddings to bf16 — on the
  extended reals the identity — and hands them to the launch, whose result array is the score matrix of those
  embeddings against the item table. The reference contracts the same averaged embeddings with the item table in one
  `dot_general`, which on the extended reals is the same sum of 64 products at every entry. No law of the extended reals
  beyond reading both sums at an index is used, so the finiteness of the inputs is never needed.
-/
import proofs.«140644_j75539884802419_2_alg».proof.Proof.KernelIdeal.Scores
import proofs.«140644_j75539884802419_2_alg».proof.Proof.Gen.ReferenceIdeal.Read
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Scores

variable (m : (ℓ : Loc nD τ sig) → Buf (Elt Ideal) ℓ)

/-- The averaged user embeddings: the reference's stage, of the kernel program's own argument arrays. -/
abbrev userEmb (c : Dev nD) : S2048x64.Idx → EReal :=
  Cert.ReferenceIdeal.Read.val_main_v9 (F := Ideal) (m ((c.tc : Thread nD τ).loc main_arg0))
    (m ((c.tc : Thread nD τ).loc main_arg1)) (m ((c.tc : Thread nD τ).loc main_arg2))

/-- The score matrix the reference computes: its `dot_general` stage, of the kernel program's own argument arrays. -/
abbrev refScores (c : Dev nD) : S2048x100000.Idx → EReal :=
  Cert.ReferenceIdeal.Read.val_main_v10 (F := Ideal) (m ((c.tc : Thread nD τ).loc main_arg0))
    (m ((c.tc : Thread nD τ).loc main_arg1)) (m ((c.tc : Thread nD τ).loc main_arg2)) (m ((c.tc : Thread nD τ).loc main_arg3))

/-- The region finds the averaged embeddings in `main_v9`: the kernel program's host operations are the reference's. -/
theorem entry_user_emb (c : Dev nD) : (V m c main_v9 : S2048x64.Idx → EReal) = userEmb m c := by
  dsimp only [Gen.V, Gen.hostOps0]; after_results; rfl

/-- The array the launch stages as its user operand is the same embeddings: narrowing to bf16 is the identity on the
    extended reals. -/
theorem entry_users (c : Dev nD) : users m c = userEmb m c := by
  have e : @Eq (S2048x64.Idx → EReal) (V m c main_v10) (truncf (F := Ideal) .bf16 (userEmb m c) bitsLt_bf16_f32) := by
    dsimp only [Gen.V, Gen.hostOps0]; after_results; rfl
  exact e.trans (funext fun i => rfl)

/-- The item table is an argument: the region finds it as launched. -/
theorem entry_items (c : Dev nD) : items m c = m ((c.tc : Thread nD τ).loc main_arg3) := V_main_arg3 m c

/-- The launch's score matrix is the reference's: entry by entry the same sum over the 64 embedding coordinates. -/
theorem scores_eq (c : Dev nD) : scoreArr m c = refScores m c := by
  funext i
  refine Eq.trans ?_ (Cert.ReferenceIdeal.Read.val_main_v10_apply _ _ _ _ i).symm
  show ∑ k : Fin 64, users m c (ix2 (⟨(i 0).val, (i 0).isLt⟩ : Fin 2048) k) * items m c (ix2 (⟨(i 1).val, (i 1).isLt⟩ : Fin 100000) k) = _
  rw [entry_users, entry_items]
  refine Finset.sum_congr rfl fun k _ => ?_
  have el : (ix2 (⟨(i 0).val, (i 0).isLt⟩ : Fin 2048) k : S2048x64.Idx) = Cert.ReferenceIdeal.Read.lidx_main_v10 i k :=
    funext fun a => by match a with | ⟨0, _⟩ => rfl | ⟨1, _⟩ => rfl
  have er : (ix2 (⟨(i 1).val, (i 1).isLt⟩ : Fin 100000) k : S100000x64.Idx) = Cert.ReferenceIdeal.Read.ridx_main_v10 i k :=
    funext fun a => by match a with | ⟨0, _⟩ => rfl | ⟨1, _⟩ => rfl
  rw [el, er]

end Cert.Bridge

end
-- ==== Proof.lean ====
/-
  The five claims about the tiled score kernel, assembled.

  The kernel averages each user's table row with the user's state and scores the result against every item; the
  launch computes the 2048 x 100000 score matrix in 49 tiles of 2048 item rows, the last tile overhanging the item
  table and the result by 352 rows and columns. The three programs run without a fault and leave their arguments
  unchanged (for the two kernel programs: the tile body never faults whatever its buffers hold, and no write-back
  reaches an argument); the idealization rewrote nothing; and on the extended reals the launch's result is the
  reference's `dot_general`, entry by entry the same sum of 64 products, the averaged embeddings being computed by
  the same host operations in both programs.
-/
import proofs.«140644_j75539884802419_2_alg».proof.Defs
import proofs.«140644_j75539884802419_2_alg».proof.Proof.Kernel.TileFrame
import proofs.«140644_j75539884802419_2_alg».proof.Proof.Bridge
import proofs.«140644_j75539884802419_2_alg».proof.Proof.Gen.Kernel
import proofs.«140644_j75539884802419_2_alg».proof.Proof.Gen.KernelIdeal
import proofs.«140644_j75539884802419_2_alg».proof.Proof.Gen.ReferenceIdeal
import proofs.«140644_j75539884802419_2_alg».proof.Proof.Gen.ReferenceIdeal.Run
import proofs.«140644_j75539884802419_2_alg».proof.Proof.Gen.ReferenceIdeal.Read
import proofs.«140644_j75539884802419_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel (hKernel := Cert.Kernel.Gen.facts) (hPre_finite_inputs := Cert.Pre_finite_inputs.Gen.facts) :=
  fun m ρ _ => Cert.Kernel.Tile.frame (F := Bits) m ρ

/-- So does the idealized kernel program: its run to the score matrix, read at the arguments. -/
theorem frame_kernel_ideal : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2.2) (Cert.KernelIdeal.Scores.run m ρ)

/-- And the idealized reference: its run, read at the arguments. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- From memories agreeing on the arguments both idealized programs end with the same three results: the score
    matrix, the averaged user embeddings, and the item table. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bridge.refScores m c, fun c => Cert.Bridge.userEmb m c,
    fun c => m ((c.tc : Thread Cert.KernelIdeal.nD Cert.KernelIdeal.τ).loc Cert.KernelIdeal.main_arg3), ?_, ?_⟩
  · exact (θ_run Cert.KernelIdeal.defs _ _).mono (fun _ h c =>
      ⟨(h c).1.trans (Cert.Bridge.scores_eq m c), (h c).2.1.trans (Cert.Bridge.entry_user_emb m c),
        (h c).2.2.2.2.2, (h c).2.2.1, (h c).2.2.2.1, (h c).2.2.2.2.1, (h c).2.2.2.2.2⟩)
      (Cert.KernelIdeal.Scores.run m ρ)
  · refine (θ_run Cert.ReferenceIdeal.defs _ _).mono (fun _ h c => ⟨?_, ?_, ?_, (h c).2.2.2⟩)
      (Cert.ReferenceIdeal.Value.run (F := Ideal) m' ρ')
    · rw [(h c).1, Cert.ReferenceIdeal.Read.val_main_v10_eq, (hagree c).1, (hagree c).2.1, (hagree c).2.2.1, (hagree c).2.2.2]
    · rw [(h c).2.1, Cert.ReferenceIdeal.Read.val_main_v9_eq, (hagree c).1, (hagree c).2.1, (hagree c).2.2.1]
    · rw [(h c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
